-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn {F : FTy → Type} [FloatOps F] (main_arg0 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  main_v3
-- ==== Kernel.lean ====
abbrev S16x64x128x128 : Shape := ⟨4, ![16, 64, 128, 128]⟩
abbrev S1024x128x128 : Shape := ⟨3, ![1024, 128, 128]⟩
abbrev S1024x9x128x128 : Shape := ⟨4, ![1024, 9, 128, 128]⟩
abbrev S16x128x128 : Shape := ⟨3, ![16, 128, 128]⟩
abbrev S16x9x128x128 : Shape := ⟨4, ![16, 9, 128, 128]⟩
abbrev S16x1x128 : Shape := ⟨3, ![16, 1, 128]⟩
abbrev S16x130x128 : Shape := ⟨3, ![16, 130, 128]⟩
abbrev S16x130x1 : Shape := ⟨3, ![16, 130, 1]⟩
abbrev S16x130x130 : Shape := ⟨3, ![16, 130, 130]⟩
abbrev S16x1x128x128 : Shape := ⟨4, ![16, 1, 128, 128]⟩
abbrev S16x64x9x128x128 : Shape := ⟨5, ![16, 64, 9, 128, 128]⟩
abbrev S16x576x128x128 : Shape := ⟨4, ![16, 576, 128, 128]⟩

abbrev nBuf : Space → Nat
  | .hbm => 5
  | .vmem => 4
  | .smem => 0
  | _ => 0

abbrev bufTy : (tb : Table) → Fin (tcTables nBuf tb) → BufTy
  | .hbm, ⟨0, _⟩ => ⟨S16x64x128x128, .f32⟩
  | .hbm, ⟨1, _⟩ => ⟨S1024x128x128, .f32⟩
  | .hbm, ⟨2, _⟩ => ⟨S1024x9x128x128, .f32⟩
  | .hbm, ⟨3, _⟩ => ⟨S16x64x9x128x128, .f32⟩
  | .hbm, ⟨4, _⟩ => ⟨S16x576x128x128, .f32⟩
  | .local _ .vmem, ⟨0, _⟩ => ⟨S16x128x128, .f32⟩
  | .local _ .vmem, ⟨1, _⟩ => ⟨S16x128x128, .f32⟩
  | .local _ .vmem, ⟨2, _⟩ => ⟨S16x9x128x128, .f32⟩
  | .local _ .vmem, ⟨3, _⟩ => ⟨S16x9x128x128, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x9x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x128x128_S1024x128x128 : S16x64x128x128.ShapeCasts S1024x128x128
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  concatenates_S16x1x128_S16x128x128_S16x1x128_S16x130x128_d1 : Shape.Concatenates [S16x1x128, S16x128x128, S16x1x128] S16x130x128 1
  concatenates_S16x130x1_S16x130x128_S16x130x1_S16x130x130_d2 : Shape.Concatenates [S16x130x1, S16x130x128, S16x130x1] S16x130x130 2
  slices_S16x130x130_o0_0_0_S16x128x128 : S16x130x130.Slices ![0, 0, 0] S16x128x128
  shapeCasts_S16x128x128_S16x1x128x128 : S16x128x128.ShapeCasts S16x1x128x128
  inb_S16x9x128x128_S16x1x128x128_0_0_0_0 : ∀ a, (![0, 0, 0, 0] : Fin 4 → Nat) a + S16x1x128x128.size a ≤ S16x9x128x128.size a
  h_S16x1x128x128 : 0 < S16x1x128x128.numel
  slices_S16x130x130_o0_0_1_S16x128x128 : S16x130x130.Slices ![0, 0, 1] S16x128x128
  inb_S16x9x128x128_S16x1x128x128_0_1_0_0 : ∀ a, (![0, 1, 0, 0] : Fin 4 → Nat) a + S16x1x128x128.size a ≤ S16x9x128x128.size a
  slices_S16x130x130_o0_0_2_S16x128x128 : S16x130x130.Slices ![0, 0, 2] S16x128x128
  inb_S16x9x128x128_S16x1x128x128_0_2_0_0 : ∀ a, (![0, 2, 0, 0] : Fin 4 → Nat) a + S16x1x128x128.size a ≤ S16x9x128x128.size a
  slices_S16x130x130_o0_1_0_S16x128x128 : S16x130x130.Slices ![0, 1, 0] S16x128x128
  inb_S16x9x128x128_S16x1x128x128_0_3_0_0 : ∀ a, (![0, 3, 0, 0] : Fin 4 → Nat) a + S16x1x128x128.size a ≤ S16x9x128x128.size a
  slices_S16x130x130_o0_1_1_S16x128x128 : S16x130x130.Slices ![0, 1, 1] S16x128x128
  inb_S16x9x128x128_S16x1x128x128_0_4_0_0 : ∀ a, (![0, 4, 0, 0] : Fin 4 → Nat) a + S16x1x128x128.size a ≤ S16x9x128x128.size a
  slices_S16x130x130_o0_1_2_S16x128x128 : S16x130x130.Slices ![0, 1, 2] S16x128x128
  inb_S16x9x128x128_S16x1x128x128_0_5_0_0 : ∀ a, (![0, 5, 0, 0] : Fin 4 → Nat) a + S16x1x128x128.size a ≤ S16x9x128x128.size a
  slices_S16x130x130_o0_2_0_S16x128x128 : S16x130x130.Slices ![0, 2, 0] S16x128x128
  inb_S16x9x128x128_S16x1x128x128_0_6_0_0 : ∀ a, (![0, 6, 0, 0] : Fin 4 → Nat) a + S16x1x128x128.size a ≤ S16x9x128x128.size a
  slices_S16x130x130_o0_2_1_S16x128x128 : S16x130x130.Slices ![0, 2, 1] S16x128x128
  inb_S16x9x128x128_S16x1x128x128_0_7_0_0 : ∀ a, (![0, 7, 0, 0] : Fin 4 → Nat) a + S16x1x128x128.size a ≤ S16x9x128x128.size a
  slices_S16x130x130_o0_2_2_S16x128x128 : S16x130x130.Slices ![0, 2, 2] S16x128x128
  inb_S16x9x128x128_S16x1x128x128_0_8_0_0 : ∀ a, (![0, 8, 0, 0] : Fin 4 → Nat) a + S16x1x128x128.size a ≤ S16x9x128x128.size a
  shapeCasts_S1024x9x128x128_S16x64x9x128x128 : S1024x9x128x128.ShapeCasts S16x64x9x128x128
  shapeCasts_S16x64x9x128x128_S16x576x128x128 : S16x64x9x128x128.ShapeCasts S16x576x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S1024x128x128.size a
  hwx0_0 : ∀ i : grid0.Coords, EltTy.bits .f32 = 32 ∨ (Rect.block (s := S1024x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x9x128x128.size a ≤ S1024x9x128x128.size a
  hwx0_1 : ∀ i : grid0.Coords, EltTy.bits .f32 = 32 ∨ (Rect.block (s := S1024x9x128x128) S16x9x128x128.size (cc0_transform_1 i) (hinb0_1 i)).WholeWords (EltTy.packing .f32)

variable [Facts₀]

abbrev win0_0 : Pipeline.Window sig grid0 :=
  Pipeline.Window.ofSpec (Memref.whole main_v0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x9x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x130x130 : Shape := ⟨4, ![16, 64, 130, 130]⟩
abbrev S16x64x1x128x128 : Shape := ⟨5, ![16, 64, 1, 128, 128]⟩
abbrev S16x64x9x128x128 : Shape := ⟨5, ![16, 64, 9, 128, 128]⟩
abbrev S16x576x128x128 : Shape := ⟨4, ![16, 576, 128, 128]⟩

abbrev nBuf : Space → Nat
  | .hbm => 24
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S_, .i32⟩
  | .hbm, ⟨2, _⟩ => ⟨S_, .f32⟩
  | .hbm, ⟨3, _⟩ => ⟨S16x64x130x130, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S16x64x1x128x128, .f32⟩
  | .hbm, ⟨14, _⟩ => ⟨S16x64x1x128x128, .f32⟩
  | .hbm, ⟨15, _⟩ => ⟨S16x64x1x128x128, .f32⟩
  | .hbm, ⟨16, _⟩ => ⟨S16x64x1x128x128, .f32⟩
  | .hbm, ⟨17, _⟩ => ⟨S16x64x1x128x128, .f32⟩
  | .hbm, ⟨18, _⟩ => ⟨S16x64x1x128x128, .f32⟩
  | .hbm, ⟨19, _⟩ => ⟨S16x64x1x128x128, .f32⟩
  | .hbm, ⟨20, _⟩ => ⟨S16x64x1x128x128, .f32⟩
  | .hbm, ⟨21, _⟩ => ⟨S16x64x1x128x128, .f32⟩
  | .hbm, ⟨22, _⟩ => ⟨S16x64x9x128x128, .f32⟩
  | .hbm, ⟨23, _⟩ => ⟨S16x576x128x128, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S16x64x128x128_S16x64x130x130_000_000_110_110 : S16x64x128x128.Pads (![0, 0, 1, 1] : Fin 4 → Nat) ![0, 0, 1, 1] ![0, 0, 0, 0] S16x64x130x130
  h_S_ : 0 < S_.numel
  slices_S16x64x130x130_S16x64x128x128_0_0_0_0 : S16x64x130x130.Slices ![0, 0, 0, 0] S16x64x128x128
  slices_S16x64x130x130_S16x64x128x128_0_0_0_1 : S16x64x130x130.Slices ![0, 0, 0, 1] S16x64x128x128
  slices_S16x64x130x130_S16x64x128x128_0_0_0_2 : S16x64x130x130.Slices ![0, 0, 0, 2] S16x64x128x128
  slices_S16x64x130x130_S16x64x128x128_0_0_1_0 : S16x64x130x130.Slices ![0, 0, 1, 0] S16x64x128x128
  slices_S16x64x130x130_S16x64x128x128_0_0_1_1 : S16x64x130x130.Slices ![0, 0, 1, 1] S16x64x128x128
  slices_S16x64x130x130_S16x64x128x128_0_0_1_2 : S16x64x130x130.Slices ![0, 0, 1, 2] S16x64x128x128
  slices_S16x64x130x130_S16x64x128x128_0_0_2_0 : S16x64x130x130.Slices ![0, 0, 2, 0] S16x64x128x128
  slices_S16x64x130x130_S16x64x128x128_0_0_2_1 : S16x64x130x130.Slices ![0, 0, 2, 1] S16x64x128x128
  slices_S16x64x130x130_S16x64x128x128_0_0_2_2 : S16x64x130x130.Slices ![0, 0, 2, 2] S16x64x128x128
  bcast_S16x64x128x128_S16x64x1x128x128_0_1_3_4 : S16x64x128x128.BroadcastsInDim S16x64x1x128x128 (![0, 1, 3, 4] : Fin 4 → Fin S16x64x1x128x128.rank)
  concatenates_S16x64x1x128x128_S16x64x1x128x128_S16x64x1x128x128_S16x64x1x128x128_S16x64x1x128x128_S16x64x1x128x128_S16x64x1x128x128_S16x64x1x128x128_S16x64x1x128x128_S16x64x9x128x128_d2 : Shape.Concatenates [S16x64x1x128x128, S16x64x1x128x128, S16x64x1x128x128, S16x64x1x128x128, S16x64x1x128x128, S16x64x1x128x128, S16x64x1x128x128, S16x64x1x128x128, S16x64x1x128x128] S16x64x9x128x128 2
  shapeCasts_S16x64x9x128x128_S16x576x128x128 : S16x64x9x128x128.ShapeCasts S16x576x128x128

variable [Facts₀]

class Facts : Prop extends Facts₀ where

variable [Facts]
-- ==== Proof.Framed.lean ====
/-
  The specification both programs are proved against.

  A 128 × 128 image set inside a frame of 130 × 130 entries whose outer ring holds one value `z`: entry (r, s) of the
  frame, rows and columns counted from the ring's, is the image's entry (r − 1, s − 1) when 1 ≤ r, s ≤ 128 and `z` on
  the ring (`framed`). The nine 128 × 128 windows of the frame at the offsets (di, dj), di, dj ∈ {0, 1, 2}, are the
  image shifted by (di − 1, dj − 1) with `z` where the shift runs off the image. `patches` stacks them channel by
  channel: for an input of 16 × 64 images the result has 576 = 64 · 9 channels, channel 9c + 3·di + dj of batch entry b
  being window (di, dj) of the framed image (b, c):

      patches z x (b, q, h, w) = framed z (x (b, q / 9, ·, ·)) (h + (q % 9) / 3) (w + (q % 9) % 3).

  Nothing here is arithmetic on the entries: the entry type is any type and `z` any value of it.
-/
import Idealize.ShloMosaic.Lib.ValueIdx

namespace Cert.Patches

open Idealize.ShloMosaic Idealize.ShloMosaic.ValueIdx

variable {α : Type}

/-- Entry (r, s) of the 130 × 130 frame around `img`: the image's entry (r − 1, s − 1) inside, `z` on the ring (and at any
    coordinates beyond the frame, which no use below reaches). -/
def framed (z : α) (img : Fin 128 → Fin 128 → α) (r s : Nat) : α :=
  if h : (1 ≤ r ∧ r ≤ 128) ∧ (1 ≤ s ∧ s ≤ 128) then img ⟨r - 1, by omega⟩ ⟨s - 1, by omega⟩ else z

/-- Inside the ring the frame reads the image. -/
theorem framed_inside (z : α) (img : Fin 128 → Fin 128 → α) {r s : Nat} (hr : 1 ≤ r ∧ r ≤ 128) (hs : 1 ≤ s ∧ s ≤ 128) :
    framed z img r s = img ⟨r - 1, by omega⟩ ⟨s - 1, by omega⟩ := by
  unfold framed; rw [dif_pos ⟨hr, hs⟩]

/-- Off the image the frame reads the ring's value. -/
theorem framed_outside (z : α) (img : Fin 128 → Fin 128 → α) {r s : Nat} (h : ¬((1 ≤ r ∧ r ≤ 128) ∧ (1 ≤ s ∧ s ≤ 128))) :
    framed z img r s = z := by
  unfold framed; rw [dif_neg h]

/-- Two frames agree at coordinates that agree, around images that agree entry by entry. -/
theorem framed_congr {z : α} {img img' : Fin 128 → Fin 128 → α} {r r' s s' : Nat}
    (himg : ∀ a b, img a b = img' a b) (hr : r = r') (hs : s = s') : framed z img r s = framed z img' r' s' := by
  subst hr hs
  rw [show img = img' from funext fun a => funext fun b => himg a b]

/-- The same frame read with another ring value that equals the first. -/
theorem framed_ring {z z' : α} (hz : z = z') (img : Fin 128 → Fin 128 → α) (r s : Nat) :
    framed z img r s = framed z' img r s := by rw [hz]

/-- The input: 16 batch entries of 64 channels of 128 × 128 images. -/
abbrev SIn : Shape := ⟨4, ![16, 64, 128, 128]⟩
/-- The result: per batch entry 576 = 64 · 9 channels, nine shifted copies of each input channel. -/
abbrev SOut : Shape := ⟨4, ![16, 576, 128, 128]⟩

/-- Channel `q` of the result is window (`q % 9 / 3`, `q % 9 % 3`) of the framed input channel `q / 9`. -/
def patches (z : α) (x : SIn.Idx → α) : SOut.Idx → α := fun i =>
  framed z (fun r s => x (ix4 (i 0) (⟨(i 1).val / 9, by have h : (i 1).val < 576 := (i 1).isLt; omega⟩ : Fin 64) r s))
    ((i 2).val + (i 1).val % 9 / 3) ((i 3).val + (i 1).val % 9 % 3)

end Cert.Patches
-- ==== Proof.RefPatches.lean ====
/-
  The reference's result, entry by entry, is `patches` of its input with the ring value the reference pads with.

  The reference pads every 128 × 128 image with one entry of its padding value on each side (`stablehlo.pad`, low and
  high 1 on the last two axes), takes the nine 128 × 128 windows of the padded array at offsets (di, dj) ∈ {0,1,2}², gives
  each a unit axis after the channel axis, stacks the nine along that axis in the order 3·di + dj, and merges the channel
  axis with the stack axis (a reshape: channel 9c + f of the result is entry f of the stack for channel c).
  Read from the result inwards: the reshape by its row-major position, the stack by which of its nine unit slabs the
  coordinate names, a slab by the broadcast and the slice, the padded array as the frame (`pad_apply`).
-/
import proofs.«120149_j29635274342941_1_alg».proof.Proof.Gen.ReferenceIdeal.Read
import proofs.«120149_j29635274342941_1_alg».proof.Proof.Framed
import Idealize.ShloMosaic.Lib.KernelVsHost
import Idealize.ShloMosaic.Lib.Pipeline.Value

noncomputable section

namespace Cert.ReferenceIdeal.RefValue

open Cert.ReferenceIdeal Cert.ReferenceIdeal.Gen Cert.ReferenceIdeal.Read Cert.Patches
open Idealize.ShloMosaic Idealize.ShloMosaic.ValueIdx

variable {α : Type}

/-- The padded array at an index is the frame around image (k 0, k 1) at (k 2, k 3): inside the ring the operand one row
    up and one column left, on the ring the padding value. -/
theorem pad_apply (x : S16x64x128x128.Idx → α) (v : S_.Idx → α)
    (hp : S16x64x128x128.Pads (![0, 0, 1, 1] : Fin 4 → Nat) ![0, 0, 1, 1] ![0, 0, 0, 0] S16x64x130x130) (hu : 0 < S_.numel)
    (k : S16x64x130x130.Idx) :
    pad S16x64x130x130 ![0, 0, 1, 1] ![0, 0, 1, 1] ![0, 0, 0, 0] x v hp hu k
      = framed (v (Shape.Idx.first hu)) (fun r s => x (ix4 (k 0) (k 1) r s)) (k 2).val (k 3).val := by
  have h2 : (k 2).val < 130 := (k 2).isLt
  have h3 : (k 3).val < 130 := (k 3).isLt
  by_cases hin : (1 ≤ (k 2).val ∧ (k 2).val ≤ 128) ∧ (1 ≤ (k 3).val ∧ (k 3).val ≤ 128)
  · rw [framed_inside _ _ hin.1 hin.2]
    exact pad_apply_of_inside _ _ _ x v hp hu k (ix4 (k 0) (k 1) ⟨(k 2).val - 1, by omega⟩ ⟨(k 3).val - 1, by omega⟩)
      (fun a => match a with
        | ⟨0, _⟩ => by show (k 0).val = 0 + (k 0).val * (0 + 1); omega
        | ⟨1, _⟩ => by show (k 1).val = 0 + (k 1).val * (0 + 1); omega
        | ⟨2, _⟩ => by show (k 2).val = 1 + ((k 2).val - 1) * (0 + 1); omega
        | ⟨3, _⟩ => by show (k 3).val = 1 + ((k 3).val - 1) * (0 + 1); omega)
  · rw [framed_outside _ _ hin]
    by_cases h2' : 1 ≤ (k 2).val ∧ (k 2).val ≤ 128
    · exact pad_apply_of_not_inside _ _ _ x v hp hu k (3 : Fin 4) (by
        show ¬(1 ≤ (k 3).val ∧ ((k 3).val - 1) % (0 + 1) = 0 ∧ ((k 3).val - 1) / (0 + 1) < 128)
        omega)
    · exact pad_apply_of_not_inside _ _ _ x v hp hu k (2 : Fin 4) (by
        show ¬(1 ≤ (k 2).val ∧ ((k 2).val - 1) % (0 + 1) = 0 ∧ ((k 2).val - 1) / (0 + 1) < 128)
        omega)

/-- One slab of the stack — the window of the padded array at offset (di, dj), with a unit axis after the channel axis —
    read at an index: the frame around image (j 0, j 1) at (di + j 3, dj + j 4). -/
theorem slab_apply (x : S16x64x128x128.Idx → α) (v : S_.Idx → α)
    (hp : S16x64x128x128.Pads (![0, 0, 1, 1] : Fin 4 → Nat) ![0, 0, 1, 1] ![0, 0, 0, 0] S16x64x130x130) (hu : 0 < S_.numel)
    (di dj : Nat) (hs : S16x64x130x130.Slices ![0, 0, di, dj] S16x64x128x128)
    (hb : S16x64x128x128.BroadcastsInDim S16x64x1x128x128 (![0, 1, 3, 4] : Fin 4 → Fin S16x64x1x128x128.rank))
    (j : S16x64x1x128x128.Idx) :
    broadcastInDim S16x64x1x128x128 ![0, 1, 3, 4] hb
        (extractStridedSlice S16x64x128x128 ![0, 0, di, dj]
          (pad S16x64x130x130 ![0, 0, 1, 1] ![0, 0, 1, 1] ![0, 0, 0, 0] x v hp hu) hs) j
      = framed (v (Shape.Idx.first hu)) (fun r s => x (ix4 (j 0) (j 1) r s)) (di + (j 3).val) (dj + (j 4).val) := by
  have hdi : di + 128 ≤ 130 := hs.2 2
  have hdj : dj + 128 ≤ 130 := hs.2 3
  have h3 : (j 3).val < 128 := (j 3).isLt
  have h4 : (j 4).val < 128 := (j 4).isLt
  refine (broadcastInDim_apply _ hb _ j (ix4 (j 0) (j 1) (j 3) (j 4)) (fun a => match a with
    | ⟨0, _⟩ => by show (j 0).val = if (16 : Nat) = 1 then 0 else (j 0).val; rw [if_neg (by decide)]
    | ⟨1, _⟩ => by show (j 1).val = if (64 : Nat) = 1 then 0 else (j 1).val; rw [if_neg (by decide)]
    | ⟨2, _⟩ => by show (j 3).val = if (128 : Nat) = 1 then 0 else (j 3).val; rw [if_neg (by decide)]
    | ⟨3, _⟩ => by show (j 4).val = if (128 : Nat) = 1 then 0 else (j 4).val; rw [if_neg (by decide)])).trans ?_
  refine (extractStridedSlice_apply _ _ hs _
    (ix4 (j 0) (j 1) (⟨di + (j 3).val, by omega⟩ : Fin 130) (⟨dj + (j 4).val, by omega⟩ : Fin 130)) (fun a => match a with
    | ⟨0, _⟩ => by show (j 0).val = 0 + (j 0).val; omega
    | ⟨1, _⟩ => by show (j 1).val = 0 + (j 1).val; omega
    | ⟨2, _⟩ => by show di + (j 3).val = di + (j 3).val; rfl
    | ⟨3, _⟩ => by show dj + (j 4).val = dj + (j 4).val; rfl)).trans ?_
  exact pad_apply x v hp hu _

variable {F : FTy → Type} [FloatOps F]

/-- The value the reference pads with: its integer zero converted to a float. -/
abbrev ring : Elt F .f32 := val_main_call0_v0 (F := F) (Shape.Idx.first h_S_)

set_option hygiene false in
/-- Slab `k` of the stack, which is window (`di`, `dj`): the stack read at an index whose coordinate on the stack axis is `k`
    is slab `k` at the index with 0 there (`concatenate_apply_piece`, `k` unit slabs before it), and the slab is the frame. -/
local macro "slab_case " k:num di:num dj:num v:ident : tactic => `(tactic|
  (refine Eq.trans (concatenate_apply_piece (2 : Fin 5) _ _ j $k ?_ S16x64x1x128x128 ($v (F := F) x) ?_ rfl $k ?_
      (ix5 (j 0) (j 1) (0 : Fin 1) (j 3) (j 4)) ?_ ?_) ?_
   · show $k < 9; omega
   · rfl
   · rfl
   · exact hi
   · show $k + 0 = (j 2).val; omega
   · exact (slab_apply x _ _ _ $di $dj _ _ _).trans (framed_congr (fun _ _ => rfl)
       (by show $di + (j 3).val = (j 3).val + (j 2).val / 3; omega)
       (by show $dj + (j 4).val = (j 4).val + (j 2).val % 3; omega))))

/-- The stack of the nine slabs read at an index: slab `j 2`, which is window (`j 2 / 3`, `j 2 % 3`). -/
theorem stack_apply (x : (⟨S16x64x128x128, .f32⟩ : BufTy).Contents (Elt F)) (j : S16x64x9x128x128.Idx) :
    val_main_v19 (F := F) x j
      = framed (ring (F := F)) (fun r s => x (ix4 (j 0) (j 1) r s)) ((j 3).val + (j 2).val / 3) ((j 4).val + (j 2).val % 3) := by
  have h2 : (j 2).val < 9 := (j 2).isLt
  have hi : ∀ b : Fin 5, b ≠ (2 : Fin 5) → ((ix5 (j 0) (j 1) (0 : Fin 1) (j 3) (j 4)) b).val = (j b).val := fun b => match b with
    | ⟨0, _⟩ => fun _ => rfl
    | ⟨1, _⟩ => fun _ => rfl
    | ⟨2, _⟩ => fun h => absurd rfl h
    | ⟨3, _⟩ => fun _ => rfl
    | ⟨4, _⟩ => fun _ => rfl
  unfold val_main_v19
  rcases (by omega : (j 2).val = 0 ∨ (j 2).val = 1 ∨ (j 2).val = 2 ∨ (j 2).val = 3 ∨ (j 2).val = 4 ∨ (j 2).val = 5
      ∨ (j 2).val = 6 ∨ (j 2).val = 7 ∨ (j 2).val = 8) with hf | hf | hf | hf | hf | hf | hf | hf | hf
  · slab_case 0 0 0 val_main_v10
  · slab_case 1 0 1 val_main_v11
  · slab_case 2 0 2 val_main_v12
  · slab_case 3 1 0 val_main_v13
  · slab_case 4 1 1 val_main_v14
  · slab_case 5 1 2 val_main_v15
  · slab_case 6 2 0 val_main_v16
  · slab_case 7 2 1 val_main_v17
  · slab_case 8 2 2 val_main_v18

/-- THE REFERENCE'S RESULT is `patches` of its input: the reshape sends channel q of the result to channel q / 9 and stack
    entry q % 9 (with 576 = 64 · 9 the row-major positions agree), and the stack entry is the window. -/
theorem result_apply (x : (⟨S16x64x128x128, .f32⟩ : BufTy).Contents (Elt F)) (i : S16x576x128x128.Idx) :
    val_main_v20 (F := F) x i = patches (ring (F := F)) x i := by
  have h0 : (i 0).val < 16 := (i 0).isLt
  have h1 : (i 1).val < 576 := (i 1).isLt
  have h2 : (i 2).val < 128 := (i 2).isLt
  have h3 : (i 3).val < 128 := (i 3).isLt
  rw [val_main_v20_apply, stack_apply]
  unfold patches
  refine framed_congr (fun a b => congrArg x (funext fun d => Fin.ext ?_)) ?_ ?_
  · match d with
    | ⟨0, _⟩ => show ((((i 0).val * 576 + (i 1).val) * 128 + (i 2).val) * 128 + (i 3).val) / 9437184 = (i 0).val; omega
    | ⟨1, _⟩ => show ((((i 0).val * 576 + (i 1).val) * 128 + (i 2).val) * 128 + (i 3).val) / 147456 % 64 = (i 1).val / 9; omega
    | ⟨2, _⟩ => rfl
    | ⟨3, _⟩ => rfl
  · show ((((i 0).val * 576 + (i 1).val) * 128 + (i 2).val) * 128 + (i 3).val) / 128 % 128
        + ((((i 0).val * 576 + (i 1).val) * 128 + (i 2).val) * 128 + (i 3).val) / 16384 % 9 / 3 = (i 2).val + (i 1).val % 9 / 3
    omega
  · show ((((i 0).val * 576 + (i 1).val) * 128 + (i 2).val) * 128 + (i 3).val) % 128
        + ((((i 0).val * 576 + (i 1).val) * 128 + (i 2).val) * 128 + (i 3).val) / 16384 % 9 % 3 = (i 3).val + (i 1).val % 9 % 3
    omega

end Cert.ReferenceIdeal.RefValue

end
-- ==== Proof.BodyBlock.lean ====
/-
  What the kernel's body leaves in its output block, entry by entry.

  At one grid point the body holds 16 images (a block of 16 × 128 × 128 entries). It sets a row of zeros above and below
  each image (a concatenation along the row axis, 1 + 128 + 1 rows), then a column of zeros left and right (along the
  column axis, 1 + 128 + 1 columns): the 130 × 130 frame around each image, its ring at the kernel's zero (`padded_apply`).
  It then stores, for di, dj ∈ {0, 1, 2}, the 128 × 128 window of the frame at offset (di, dj), given a unit axis, into
  entry 3·di + dj of the second axis of the 16 × 9 × 128 × 128 output block (`window_apply`). The nine stores tile the
  block, so the block's entry (n, f, h, w) is the frame around image n at (h + f / 3, w + f % 3) (`block_apply`).
-/
import proofs.«120149_j29635274342941_1_alg».proof.Proof.Gen.KernelIdeal.Frame
import proofs.«120149_j29635274342941_1_alg».proof.Proof.Framed
import Idealize.ShloMosaic.Lib.Pipeline.Value

noncomputable section

namespace Cert.KernelIdeal.Body

open Cert.KernelIdeal Cert.KernelIdeal.Gen Cert.Patches
open Idealize.ShloMosaic Idealize.ShloMosaic.ValueIdx

variable {α : Type}

/-! ## A row of `z` above and below -/

/-- Rows 1 … 128 of the 130 rows are the block's rows 0 … 127. -/
theorem rows_inside (z : α) (x1 : S16x128x128.Idx → α)
    (h : Shape.Concatenates [S16x1x128, S16x128x128, S16x1x128] S16x130x128 1) (k : S16x130x128.Idx)
    (hr : 1 ≤ (k 1).val ∧ (k 1).val ≤ 128) :
    concatenate S16x130x128 1
        [⟨S16x1x128, broadcast S16x1x128 z⟩, ⟨S16x128x128, x1⟩, ⟨S16x1x128, broadcast S16x1x128 z⟩] h k
      = x1 (ix3 (k 0) (⟨(k 1).val - 1, by omega⟩ : Fin 128) (k 2)) :=
  concatenate_apply_piece (t := S16x130x128) (1 : Fin 3)
    [⟨S16x1x128, broadcast S16x1x128 z⟩, ⟨S16x128x128, x1⟩, ⟨S16x1x128, broadcast S16x1x128 z⟩] h k 1 (by show (1 : Nat) < 3; omega)
    S16x128x128 x1 rfl rfl 1 rfl (ix3 (k 0) (⟨(k 1).val - 1, by omega⟩ : Fin 128) (k 2))
    (fun b => match b with | ⟨0, _⟩ => fun _ => rfl | ⟨1, _⟩ => fun hb => absurd rfl hb | ⟨2, _⟩ => fun _ => rfl)
    (by show 1 + ((k 1).val - 1) = (k 1).val; omega)

/-- Rows 0 and 129 hold `z`. -/
theorem rows_outside (z : α) (x1 : S16x128x128.Idx → α)
    (h : Shape.Concatenates [S16x1x128, S16x128x128, S16x1x128] S16x130x128 1) (k : S16x130x128.Idx)
    (hr : ¬(1 ≤ (k 1).val ∧ (k 1).val ≤ 128)) :
    concatenate S16x130x128 1
        [⟨S16x1x128, broadcast S16x1x128 z⟩, ⟨S16x128x128, x1⟩, ⟨S16x1x128, broadcast S16x1x128 z⟩] h k = z := by
  have hk : (k 1).val < 130 := (k 1).isLt
  by_cases h0 : (k 1).val = 0
  · exact concatenate_apply_piece (t := S16x130x128) (1 : Fin 3)
      [⟨S16x1x128, broadcast S16x1x128 z⟩, ⟨S16x128x128, x1⟩, ⟨S16x1x128, broadcast S16x1x128 z⟩] h k 0 (by show (0 : Nat) < 3; omega)
      S16x1x128 (broadcast S16x1x128 z) rfl rfl 0 rfl (ix3 (k 0) (0 : Fin 1) (k 2))
      (fun b => match b with | ⟨0, _⟩ => fun _ => rfl | ⟨1, _⟩ => fun hb => absurd rfl hb | ⟨2, _⟩ => fun _ => rfl)
      (by show 0 + 0 = (k 1).val; omega)
  · exact concatenate_apply_piece (t := S16x130x128) (1 : Fin 3)
      [⟨S16x1x128, broadcast S16x1x128 z⟩, ⟨S16x128x128, x1⟩, ⟨S16x1x128, broadcast S16x1x128 z⟩] h k 2 (by show (2 : Nat) < 3; omega)
      S16x1x128 (broadcast S16x1x128 z) rfl rfl 129 rfl (ix3 (k 0) (0 : Fin 1) (k 2))
      (fun b => match b with | ⟨0, _⟩ => fun _ => rfl | ⟨1, _⟩ => fun hb => absurd rfl hb | ⟨2, _⟩ => fun _ => rfl)
      (by show 129 + 0 = (k 1).val; omega)

/-! ## A column of `z` left and right -/

/-- Columns 1 … 128 of the 130 columns are the operand's columns 0 … 127. -/
theorem cols_inside (z : α) (x3 : S16x130x128.Idx → α)
    (h : Shape.Concatenates [S16x130x1, S16x130x128, S16x130x1] S16x130x130 2) (k : S16x130x130.Idx)
    (hs : 1 ≤ (k 2).val ∧ (k 2).val ≤ 128) :
    concatenate S16x130x130 2
        [⟨S16x130x1, broadcast S16x130x1 z⟩, ⟨S16x130x128, x3⟩, ⟨S16x130x1, broadcast S16x130x1 z⟩] h k
      = x3 (ix3 (k 0) (k 1) (⟨(k 2).val - 1, by omega⟩ : Fin 128)) :=
  concatenate_apply_piece (t := S16x130x130) (2 : Fin 3)
    [⟨S16x130x1, broadcast S16x130x1 z⟩, ⟨S16x130x128, x3⟩, ⟨S16x130x1, broadcast S16x130x1 z⟩] h k 1 (by show (1 : Nat) < 3; omega)
    S16x130x128 x3 rfl rfl 1 rfl (ix3 (k 0) (k 1) (⟨(k 2).val - 1, by omega⟩ : Fin 128))
    (fun b => match b with | ⟨0, _⟩ => fun _ => rfl | ⟨1, _⟩ => fun _ => rfl | ⟨2, _⟩ => fun hb => absurd rfl hb)
    (by show 1 + ((k 2).val - 1) = (k 2).val; omega)

/-- Columns 0 and 129 hold `z`. -/
theorem cols_outside (z : α) (x3 : S16x130x128.Idx → α)
    (h : Shape.Concatenates [S16x130x1, S16x130x128, S16x130x1] S16x130x130 2) (k : S16x130x130.Idx)
    (hs : ¬(1 ≤ (k 2).val ∧ (k 2).val ≤ 128)) :
    concatenate S16x130x130 2
        [⟨S16x130x1, broadcast S16x130x1 z⟩, ⟨S16x130x128, x3⟩, ⟨S16x130x1, broadcast S16x130x1 z⟩] h k = z := by
  have hk : (k 2).val < 130 := (k 2).isLt
  by_cases h0 : (k 2).val = 0
  · exact concatenate_apply_piece (t := S16x130x130) (2 : Fin 3)
      [⟨S16x130x1, broadcast S16x130x1 z⟩, ⟨S16x130x128, x3⟩, ⟨S16x130x1, broadcast S16x130x1 z⟩] h k 0 (by show (0 : Nat) < 3; omega)
      S16x130x1 (broadcast S16x130x1 z) rfl rfl 0 rfl (ix3 (k 0) (k 1) (0 : Fin 1))
      (fun b => match b with | ⟨0, _⟩ => fun _ => rfl | ⟨1, _⟩ => fun _ => rfl | ⟨2, _⟩ => fun hb => absurd rfl hb)
      (by show 0 + 0 = (k 2).val; omega)
  · exact concatenate_apply_piece (t := S16x130x130) (2 : Fin 3)
      [⟨S16x130x1, broadcast S16x130x1 z⟩, ⟨S16x130x128, x3⟩, ⟨S16x130x1, broadcast S16x130x1 z⟩] h k 2 (by show (2 : Nat) < 3; omega)
      S16x130x1 (broadcast S16x130x1 z) rfl rfl 129 rfl (ix3 (k 0) (k 1) (0 : Fin 1))
      (fun b => match b with | ⟨0, _⟩ => fun _ => rfl | ⟨1, _⟩ => fun _ => rfl | ⟨2, _⟩ => fun hb => absurd rfl hb)
      (by show 129 + 0 = (k 2).val; omega)

/-! ## One window of the frame, with a unit axis -/

/-- The 16 × 128 × 128 window of a 16 × 130 × 130 array at offset (0, di, dj), re-laid as 16 × 1 × 128 × 128, read at
    (n, 0, h, w): the array at (n, di + h, dj + w). -/
theorem window_apply (v5 : S16x130x130.Idx → α) (di dj : Nat) (hs : S16x130x130.Slices ![0, di, dj] S16x128x128)
    (hc : S16x128x128.ShapeCasts S16x1x128x128) (y : S16x1x128x128.Idx) :
    shapeCast S16x1x128x128 (extractStridedSlice S16x128x128 ![0, di, dj] v5 hs) hc y
      = v5 (ix3 (y 0)
          (⟨di + (y 2).val, by have h : di + 128 ≤ 130 := hs.2 1; have h2 : (y 2).val < 128 := (y 2).isLt; omega⟩ : Fin 130)
          (⟨dj + (y 3).val, by have h : dj + 128 ≤ 130 := hs.2 2; have h3 : (y 3).val < 128 := (y 3).isLt; omega⟩ : Fin 130)) := by
  have h0 : (y 0).val < 16 := (y 0).isLt
  have h1 : (y 1).val < 1 := (y 1).isLt
  have h2 : (y 2).val < 128 := (y 2).isLt
  have h3 : (y 3).val < 128 := (y 3).isLt
  refine (shapeCast_apply _ hc y (ix3 (y 0) (y 2) (y 3)) (by
    rw [Shape.rowMajor_val_three, Shape.rowMajor_val_four]
    show ((y 0).val * 128 + (y 2).val) * 128 + (y 3).val
      = (((y 0).val * 1 + (y 1).val) * 128 + (y 2).val) * 128 + (y 3).val
    omega)).trans ?_
  exact extractStridedSlice_apply _ v5 hs _ _ (fun a => match a with
    | ⟨0, _⟩ => by show (y 0).val = 0 + (y 0).val; omega
    | ⟨1, _⟩ => rfl
    | ⟨2, _⟩ => rfl)

/-! ## The body's values -/

variable {F : FTy → Type} [FloatOps F]

/-- The value the kernel sets around each image: the f32 word of all zero bits. -/
abbrev ring : F .f32 := Scalar.ofBits .f32 0x00000000#32

/-- The kernel's padded block at (n, r, s) is the frame around image n of the block at (r, s). -/
theorem padded_apply (x0 : Vec F S16x128x128 .f32) (k : S16x130x130.Idx) :
    k0_pay4 x0 k = framed (ring (F := F)) (fun r s => x0 (ix3 (k 0) r s)) (k 1).val (k 2).val := by
  unfold k0_pay4
  by_cases hs : 1 ≤ (k 2).val ∧ (k 2).val ≤ 128
  · refine (cols_inside _ _ _ k hs).trans ?_
    by_cases hr : 1 ≤ (k 1).val ∧ (k 1).val ≤ 128
    · refine (rows_inside _ _ _ _ hr).trans ?_
      rw [framed_inside _ _ hr hs, shapeCast_self]
    · refine (rows_outside _ _ _ _ hr).trans ?_
      rw [framed_outside _ _ (fun h => hr h.1)]
  · refine (cols_outside _ _ _ k hs).trans ?_
    rw [framed_outside _ _ (fun h => hs h.2)]

theorem hz3 : (![0, 0, 0] : Fin 3 → Nat) = fun _ => 0 := funext fun a => by fin_cases a <;> rfl

set_option hygiene false in
/-- The store into entry `f` = 3·`di` + `dj` of the block's second axis: its payload at (n, 0, h, w) is window (`di`, `dj`) of the
    padded block there, which is the frame at (`di` + h, `dj` + w); under the store's rectangle that index is (n, `f`, h, w). -/
local macro "piece_case " f:num di:num dj:num : tactic => `(tactic|
  (have hx0 : (x 0).val < 16 := (x 0).isLt
   have hx1 : (x 1).val < 1 := (x 1).isLt
   have hx2 : (x 2).val < 128 := (x 2).isLt
   have hx3 : (x 3).val < 128 := (x 3).isLt
   refine (window_apply (k0_pay4 x0) $di $dj (by decide) (by decide) x).trans ((padded_apply x0 _).trans
     (framed_congr (fun a b => congrArg x0 (funext fun d => Fin.ext ?_)) ?_ ?_))
   · match d with
     | ⟨0, _⟩ => show (x 0).val = 0 + 1 * (x 0).val; omega
     | ⟨1, _⟩ => rfl
     | ⟨2, _⟩ => rfl
   · show $di + (x 2).val = (0 + 1 * (x 2).val) + ($f + 1 * (x 1).val) / 3; omega
   · show $dj + (x 3).val = (0 + 1 * (x 3).val) + ($f + 1 * (x 1).val) % 3; omega))

/-- THE OUTPUT BLOCK after the body, from the input block: entry (n, f, h, w) is the frame around image n at
    (h + f / 3, w + f % 3). -/
theorem block_apply (x0 : Vec F S16x128x128 .f32) (y : S16x9x128x128.Idx) :
    out0_1 x0 y = framed (ring (F := F)) (fun r s => x0 (ix3 (y 0) r s)) ((y 2).val + (y 1).val / 3) ((y 3).val + (y 1).val % 3) := by
  unfold out0_1
  simp only [View.ld_unit_zero (S := S16x128x128) hz3]
  refine View.canon_apply_of_pieces
    (fun y : S16x9x128x128.Idx => framed (ring (F := F)) (fun r s => x0 (ix3 (y 0) r s))
      ((y 2).val + (y 1).val / 3) ((y 3).val + (y 1).val % 3)) _ ?_ y (cover0_1 _ _ _ _ _ _ _ _ _ y)
  intro pc hpc x
  rcases List.mem_cons.mp hpc with rfl | hpc
  · piece_case 8 2 2
  rcases List.mem_cons.mp hpc with rfl | hpc
  · piece_case 7 2 1
  rcases List.mem_cons.mp hpc with rfl | hpc
  · piece_case 6 2 0
  rcases List.mem_cons.mp hpc with rfl | hpc
  · piece_case 5 1 2
  rcases List.mem_cons.mp hpc with rfl | hpc
  · piece_case 4 1 1
  rcases List.mem_cons.mp hpc with rfl | hpc
  · piece_case 3 1 0
  rcases List.mem_cons.mp hpc with rfl | hpc
  · piece_case 2 0 2
  rcases List.mem_cons.mp hpc with rfl | hpc
  · piece_case 1 0 1
  rcases List.mem_cons.mp hpc with rfl | hpc
  · piece_case 0 0 0
  nomatch hpc

end Cert.KernelIdeal.Body

end
-- ==== Proof.KernelArray.lean ====
/-
  The kernel's result array, entry by entry, is `patches` of its input with the kernel's zero on the ring.

  The program flattens batch and channel (a reshape: image 64·b + c of 1024), runs the body over 64 grid points, point t
  holding images 16t … 16t + 15 and writing rows 16t … 16t + 15 of a 1024 × 9 × 128 × 128 array, then splits the first
  axis back into batch and channel and merges channel with the axis of nine.
  * `windows`: the 1024 × 9 × 128 × 128 array as one function of the 1024 × 128 × 128 one — entry (n, f, h, w) is the frame
    around image n at (h + f / 3, w + f % 3).
  * What point t writes back is block t of `windows` (`flushed_eq`: the body's block, with the input block read where the
    output block's first coordinate says); the 64 blocks cover the array (`cover`: row n is in block n / 16); so the
    array after the region is `windows` of the array before it (`final`).
  * The reshapes on both sides keep row-major positions: (b, 9c + f, h, w) ↔ (b, c, f, h, w) ↔ (64b + c, f, h, w), and
    image 64b + c of the flattened input is image (b, c) (`result_apply`).
-/
import proofs.«120149_j29635274342941_1_alg».proof.Proof.BodyBlock
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Body Cert.Patches
open Idealize.ShloMosaic Idealize.ShloMosaic.TcCoe Idealize.ShloMosaic.ValueIdx Idealize.SL.Sem
open Idealize.ShloMosaic.Pipeline (Dat)

variable {F : FTy → Type} [FloatOps F]

/-- The region's output array from its input array: entry (n, f, h, w) is the frame around image n at (h + f / 3, w + f % 3). -/
def windows (z : F .f32) (u : S1024x128x128.Idx → Elt F .f32) : S1024x9x128x128.Idx → Elt F .f32 := fun i =>
  framed z (fun r s => u (ix3 (i 0) r s)) ((i 2).val + (i 1).val / 3) ((i 3).val + (i 1).val % 3)

variable (m : (ℓ : Loc nD τ sig) → Buf (Elt F) ℓ) (ρ : Dev nD → PrngReg)

/-- The printed index maps over the 64 grid points: point t's input block is block t along the first axis, and so is its
    output block; on the other axes both are the one block. -/
theorem idx_facts : ∀ t : Fin cfg0.N, win0_0.index t (0 : Fin 3) = t.val ∧ win0_0.index t (1 : Fin 3) = 0
    ∧ win0_0.index t (2 : Fin 3) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- WHAT POINT `t` WRITES BACK is block `t` of `windows` of the array the region finds. -/
theorem flushed_eq (c : Dev nD) (t : Fin cfg0.N) :
    (dats m 0 c).flushed 1 t
      = ((cfg0.win 1).blk t).view.read (Elt F) (windows (ring (F := F)) (V m c main_v0)) := by
  show (cfg0.win 1).cut (grid0.coords t) ((dats m 0 c).after 1 t) = _
  rw [after0_1]
  obtain ⟨e0, e1, e2, e3, e4, e5, e6⟩ := idx_facts t
  funext y
  show out0_1 (iblk m c 0 t) y = windows (ring (F := F)) (V m c main_v0) (((cfg0.win 1).blk t).view.emb y)
  refine (block_apply (iblk m c 0 t) y).trans ?_
  have hy0 : (y 0).val < 16 := (y 0).isLt
  have hy1 : (y 1).val < 9 := (y 1).isLt
  have hy2 : (y 2).val < 128 := (y 2).isLt
  have hy3 : (y 3).val < 128 := (y 3).isLt
  refine framed_congr (fun a b => ?_) ?_ ?_
  · show V m c main_v0 (((cfg0.win 0).blk t).view.emb (ix3 (y 0) a b)) = V m c main_v0 _
    refine congrArg (V m c main_v0) (funext fun d => Fin.ext ?_)
    match d with
    | ⟨0, _⟩ => show win0_0.index t (0 : Fin 3) * 16 + 1 * (y 0).val = win0_1.index t (0 : Fin 4) * 16 + 1 * (y 0).val; omega
    | ⟨1, _⟩ => show win0_0.index t (1 : Fin 3) * 128 + 1 * a.val = a.val; omega
    | ⟨2, _⟩ => show win0_0.index t (2 : Fin 3) * 128 + 1 * b.val = b.val; omega
  · show (y 2).val + (y 1).val / 3
      = (win0_1.index t (2 : Fin 4) * 128 + 1 * (y 2).val) + (win0_1.index t (1 : Fin 4) * 9 + 1 * (y 1).val) / 3
    omega
  · show (y 3).val + (y 1).val % 3
      = (win0_1.index t (3 : Fin 4) * 128 + 1 * (y 3).val) + (win0_1.index t (1 : Fin 4) * 9 + 1 * (y 1).val) % 3
    omega

/-- An index of the output array is in point `t`'s block iff each coordinate is in the block's range on its axis. -/
theorem mem_blk (t : Fin cfg0.N) (i : S1024x9x128x128.Idx) :
    i ∈ ((cfg0.win 1).blk t).view.set ↔ ∀ a : Fin 4, win0_1.index t a * S16x9x128x128.size a ≤ (i a).val
      ∧ (i a).val < win0_1.index t a * S16x9x128x128.size a + S16x9x128x128.size a := by
  show i ∈ ((View.whole main_v1).slice (win0_1.rect t)).set ↔ _
  rw [View.set_slice_whole, Rect.mem_set_unit]
  exact Iff.rfl

/-- The 64 blocks cover the output array: row n of its first axis is in block n / 16. -/
theorem cover (i : S1024x9x128x128.Idx) :
    ∃ t : Fin cfg0.N, (cfg0.win 1).flush t = true ∧ i ∈ ((cfg0.win 1).blk t).view.set := by
  have h0 : (i 0).val < 1024 := (i 0).isLt
  have h1 : (i 1).val < 9 := (i 1).isLt
  have h2 : (i 2).val < 128 := (i 2).isLt
  have h3 : (i 3).val < 128 := (i 3).isLt
  have ht : (i 0).val / 16 < cfg0.N := Nat.lt_of_lt_of_eq (by omega : (i 0).val / 16 < 64) (N_0.symm : 64 = cfg0.N)
  obtain ⟨e0, e1, e2, e3, e4, e5, e6⟩ := idx_facts ⟨(i 0).val / 16, ht⟩
  have e3' : win0_1.index ⟨(i 0).val / 16, ht⟩ (0 : Fin 4) = (i 0).val / 16 := e3
  refine ⟨⟨(i 0).val / 16, ht⟩, flush0_1 _, ?_⟩
  rw [mem_blk]
  intro a
  match a with
  | ⟨0, _⟩ =>
    show win0_1.index ⟨(i 0).val / 16, ht⟩ (0 : Fin 4) * 16 ≤ (i 0).val
      ∧ (i 0).val < win0_1.index ⟨(i 0).val / 16, ht⟩ (0 : Fin 4) * 16 + 16
    omega
  | ⟨1, _⟩ =>
    show win0_1.index ⟨(i 0).val / 16, ht⟩ (1 : Fin 4) * 9 ≤ (i 1).val
      ∧ (i 1).val < win0_1.index ⟨(i 0).val / 16, ht⟩ (1 : Fin 4) * 9 + 9
    omega
  | ⟨2, _⟩ =>
    show win0_1.index ⟨(i 0).val / 16, ht⟩ (2 : Fin 4) * 128 ≤ (i 2).val
      ∧ (i 2).val < win0_1.index ⟨(i 0).val / 16, ht⟩ (2 : Fin 4) * 128 + 128
    omega
  | ⟨3, _⟩ =>
    show win0_1.index ⟨(i 0).val / 16, ht⟩ (3 : Fin 4) * 128 ≤ (i 3).val
      ∧ (i 3).val < win0_1.index ⟨(i 0).val / 16, ht⟩ (3 : Fin 4) * 128 + 128
    omega

/-- THE OUTPUT ARRAY after the region is `windows` of the input array as the region finds it. -/
theorem final (c : Dev nD) : (dats m 0 c).arrAt 1 cfg0.N = windows (ring (F := F)) (V m c main_v0) :=
  (dats m 0 c).arrAt_eq_of_cover 1 _ (fun t _ => flushed_eq m c t) cover

/-- The array the region finds is the input with batch and channel flattened: image n is image (n / 64, n % 64). -/
theorem entry_apply (c : Dev nD) (n : Fin 1024) (r s : Fin 128) :
    (V m c main_v0 : S1024x128x128.Idx → Elt F .f32) (ix3 n r s)
      = (m ((c : Thread nD τ).loc main_arg0) : S16x64x128x128.Idx → Elt F .f32)
          (ix4 (⟨n.val / 64, by omega⟩ : Fin 16) (⟨n.val % 64, by omega⟩ : Fin 64) r s) := by
  have e : (V m c main_v0 : S1024x128x128.Idx → Elt F .f32)
      = shapeCast S1024x128x128 (m ((c : Thread nD τ).loc main_arg0) : S16x64x128x128.Idx → Elt F .f32)
          shapeCasts_S16x64x128x128_S1024x128x128 := by
    show StableHlo.after hostOps0 (fun b => m (c, b)) (Proc.devRef .tc main_v0) = _
    after_results
    rfl
  rw [e]
  exact shapeCast_apply (s := S16x64x128x128) (t := S1024x128x128)
    (m ((c : Thread nD τ).loc main_arg0) : S16x64x128x128.Idx → Elt F .f32) shapeCasts_S16x64x128x128_S1024x128x128
    (ix3 n r s) (ix4 (⟨n.val / 64, by omega⟩ : Fin 16) (⟨n.val % 64, by omega⟩ : Fin 64) r s) (by
    rw [Shape.rowMajor_val_four, Shape.rowMajor_val_three]
    show (((n.val / 64) * 64 + n.val % 64) * 128 + r.val) * 128 + s.val = (n.val * 128 + r.val) * 128 + s.val
    omega)

/-- The result buffer after the two reshapes that follow the region, from the region's output array. -/
theorem tail_eq (c : Dev nD) :
    (Pipeline.afterTail₀ cfgs (dats m) 0 (V0 m) [hostOps1] c main_v3 : S16x576x128x128.Idx → Elt F .f32)
      = shapeCast S16x576x128x128
          (shapeCast S16x64x9x128x128 ((dats m 0 c).arrAt 1 cfg0.N : S1024x9x128x128.Idx → Elt F .f32)
            shapeCasts_S1024x9x128x128_S16x64x9x128x128)
          shapeCasts_S16x64x9x128x128_S16x576x128x128 := by
  unfold Pipeline.afterTail₀
  show StableHlo.after hostOps1 _ (Proc.devRef .tc main_v3) = _
  after_results
  rw [Pipeline.withArrays_arr spec0 launch0.win.arr_inj c _ _ 1]
  rfl

/-- THE RESULT, entry by entry: `patches` of the input, the kernel's zero on the ring. -/
theorem result_apply (c : Dev nD) (i : S16x576x128x128.Idx) :
    (Pipeline.afterTail₀ cfgs (dats m) 0 (V0 m) [hostOps1] c main_v3 : S16x576x128x128.Idx → Elt F .f32) i
      = patches (ring (F := F)) (m ((c : Thread nD τ).loc main_arg0) : S16x64x128x128.Idx → Elt F .f32) i := by
  obtain ⟨b, q, h, w, rfl⟩ : ∃ (b : Fin 16) (q : Fin 576) (h w : Fin 128), i = ix4 b q h w :=
    ⟨i 0, i 1, i 2, i 3, eq_ix4 i⟩
  have hb : b.val < 16 := b.isLt
  have hq : q.val < 576 := q.isLt
  rw [tail_eq, final]
  refine (shapeCast_apply (s := S16x64x9x128x128) (t := S16x576x128x128) _ _ (ix4 b q h w)
    (ix5 b (⟨q.val / 9, by omega⟩ : Fin 64) (⟨q.val % 9, by omega⟩ : Fin 9) h w) (by
      rw [Shape.rowMajor_val_five, Shape.rowMajor_val_four]
      show (((b.val * 64 + q.val / 9) * 9 + q.val % 9) * 128 + h.val) * 128 + w.val
        = ((b.val * 576 + q.val) * 128 + h.val) * 128 + w.val
      omega)).trans ?_
  refine (shapeCast_apply (s := S1024x9x128x128) (t := S16x64x9x128x128) _ _ _
    (ix4 (⟨b.val * 64 + q.val / 9, by omega⟩ : Fin 1024) (⟨q.val % 9, by omega⟩ : Fin 9) h w) (by
      rw [Shape.rowMajor_val_five, Shape.rowMajor_val_four]
      show (((b.val * 64 + q.val / 9) * 9 + q.val % 9) * 128 + h.val) * 128 + w.val
        = (((b.val * 64 + q.val / 9) * 9 + q.val % 9) * 128 + h.val) * 128 + w.val
      rfl)).trans ?_
  unfold windows patches
  refine framed_congr (fun r s => ?_) ?_ ?_
  · refine (entry_apply m c _ r s).trans (congrArg _ (funext fun d => Fin.ext ?_))
    match d with
    | ⟨0, _⟩ => show (b.val * 64 + q.val / 9) / 64 = b.val; omega
    | ⟨1, _⟩ => show (b.val * 64 + q.val / 9) % 64 = q.val / 9; omega
    | ⟨2, _⟩ => rfl
    | ⟨3, _⟩ => rfl
  · show h.val + q.val % 9 / 3 = h.val + q.val % 9 / 3; rfl
  · show w.val + q.val % 9 % 3 = w.val + q.val % 9 % 3; rfl

/-- THE KERNEL'S RUN: every weakly fair execution ends with the result buffer at `patches` of the input, the input kept. -/
theorem run : θ_run defs (onTc (τ := τ) (main (F := F))) ⟨m, fun _ => 0, ρ⟩ fun r => ∀ c : Dev nD,
      r.2.mem ((c : Thread nD τ).loc main_v3)
        = patches (ring (F := F)) (m ((c : Thread nD τ).loc main_arg0) : S16x64x128x128.Idx → Elt F .f32)
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (funext (result_apply m c)),
       ((h c).2 main_arg0 (Pipeline.mem_restRefs_of main_arg0 (by decide) (by decide))).trans (W_main_arg0 m (dats m) c)⟩)
    (run_main m ρ)

end Cert.KernelIdeal.Whole

end
-- ==== Proof.lean ====
/-
  The kernel and its reference compute the same array: nine shifted copies of every image, zero where a shift runs off it.

  For an input x of 16 × 64 images of 128 × 128 entries both programs return y of 16 × 576 × 128 × 128 entries with
      y (b, 9c + 3·di + dj, h, w) = x (b, c, h + di − 1, w + dj − 1)   if that entry exists, and 0 otherwise   (di, dj ∈ {0, 1, 2}).
  `Cert.Patches.patches z x` (Proof/Framed.lean) is that array with `z` in place of 0. The reference pads x with one
  entry all round, slices the nine windows, stacks them and merges axes: its result is `patches` with its padding value
  on the ring (Proof/RefPatches.lean, over the generated run and index lemmas of the reference). The kernel flattens
  batch and channel, frames sixteen images per grid point with rows and columns of zeros, stores the nine windows side by
  side, and reshapes back: its result is `patches` with its zero on the ring (Proof/BodyBlock.lean for one grid point,
  Proof/KernelArray.lean for the whole array, over the generated frame run). The reference's padding value is the integer
  0 converted to a float and the kernel's is the f32 word of all zero bits; over the extended reals both are 0. No entry
  is added, multiplied or compared, so nothing is asked of the input: the precondition is never opened.

  The three frame claims are the generated frame runs (the reference's is its generated run with the result dropped), and
  the idealization rewrote no operation, so `preserves` is `True`.
-/
import proofs.«120149_j29635274342941_1_alg».proof.Defs
import proofs.«120149_j29635274342941_1_alg».proof.Proof.Gen.Kernel
import proofs.«120149_j29635274342941_1_alg».proof.Proof.Gen.Kernel.Skeleton
import proofs.«120149_j29635274342941_1_alg».proof.Proof.Gen.Kernel.Launch
import proofs.«120149_j29635274342941_1_alg».proof.Proof.Gen.Kernel.Points
import proofs.«120149_j29635274342941_1_alg».proof.Proof.Gen.Kernel.Frame
import proofs.«120149_j29635274342941_1_alg».proof.Proof.Gen.KernelIdeal
import proofs.«120149_j29635274342941_1_alg».proof.Proof.Gen.KernelIdeal.Skeleton
import proofs.«120149_j29635274342941_1_alg».proof.Proof.Gen.KernelIdeal.Launch
import proofs.«120149_j29635274342941_1_alg».proof.Proof.Gen.KernelIdeal.Points
import proofs.«120149_j29635274342941_1_alg».proof.Proof.Gen.KernelIdeal.Frame
import proofs.«120149_j29635274342941_1_alg».proof.Proof.Gen.ReferenceIdeal
import proofs.«120149_j29635274342941_1_alg».proof.Proof.Gen.ReferenceIdeal.Run
import proofs.«120149_j29635274342941_1_alg».proof.Proof.Gen.ReferenceIdeal.Read
import proofs.«120149_j29635274342941_1_alg».proof.Proof.Gen.Pre_finite_inputs
import proofs.«120149_j29635274342941_1_alg».proof.Proof.Framed
import proofs.«120149_j29635274342941_1_alg».proof.Proof.RefPatches
import proofs.«120149_j29635274342941_1_alg».proof.Proof.BodyBlock
import proofs.«120149_j29635274342941_1_alg».proof.Proof.KernelArray
import Idealize.ShloMosaic.Adequacy
import Idealize.ShloMosaic.Init
import Idealize.ShloMosaic.Lib.KernelVsHost
import Idealize.ShloMosaic.PureOps.Ideal.Laws

noncomputable section

namespace Cert.Proof

open Idealize.ShloMosaic Idealize.ShloMosaic.TcCoe Idealize.SL.Sem Cert.Patches

/-! ## The two ring values are the extended real 0 -/

/-- The kernel's zero: the f32 word of all zero bits denotes 0. -/
theorem ring_kernel : Cert.KernelIdeal.Body.ring (F := Ideal) = (0 : EReal) := Ideal.ofBits_zero_f32

/-- The reference's padding value: the integer 0 converted to a float is 0. -/
theorem ring_reference : Cert.ReferenceIdeal.RefValue.ring (F := Ideal) = (0 : EReal) := sitofp_zero (φ := .f32)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the input, end with the result buffer at `patches 0` of the input. -/
theorem algebraic : Cert.algebraic_KernelIdeal_ReferenceIdeal := by
  intro m ρ m' ρ' _ hagree
  refine ⟨fun c => patches (0 : EReal)
    (m ((c : Thread Cert.KernelIdeal.nD Cert.KernelIdeal.τ).loc Cert.KernelIdeal.main_arg0) : SIn.Idx → EReal), ?_, ?_⟩
  · refine (θ_run Cert.KernelIdeal.defs _ _).mono (fun _ h c => ⟨(h c).1.trans ?_, (h c).2⟩)
      (Cert.KernelIdeal.Whole.run (F := Ideal) m ρ)
    rw [ring_kernel]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, hagree c]
    funext i
    rw [Cert.ReferenceIdeal.RefValue.result_apply, ring_reference]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
